-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S16x4096x3 : Shape := ⟨3, ![16, 4096, 3]⟩
abbrev S256x8 : Shape := ⟨2, ![256, 8]⟩
abbrev S256 : Shape := ⟨1, ![256]⟩
abbrev S3x256x8 : Shape := ⟨3, ![3, 256, 8]⟩
abbrev S3x256 : Shape := ⟨2, ![3, 256]⟩
abbrev S_ : Shape := ⟨0, ![]⟩

class Facts : Prop where
  bcast_S_S256x8 : S_.BroadcastsInDim S256x8 (![] : Fin 0 → Fin S256x8.rank)
  reducesTo_S256x8_S_d0_1 : S256x8.ReducesTo [0, 1] S_
  h_S_ : 0 < S_.numel
  bcast_S_S256 : S_.BroadcastsInDim S256 (![] : Fin 0 → Fin S256.rank)
  reducesTo_S256_S_d0 : S256.ReducesTo [0] S_
  bcast_S_S3x256x8 : S_.BroadcastsInDim S3x256x8 (![] : Fin 0 → Fin S3x256x8.rank)
  reducesTo_S3x256x8_S_d0_1_2 : S3x256x8.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg7 : FVec F S3x256x8 .f32) (main_arg8 : FVec F S3x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x256x8 .f32 := Host.absf main_arg7
  let main_cst_6 : FVec F S_ .f32 := constant S_ .f32 0x7F800000#32
  let main_v20 : FVec F S3x256x8 .f32 := broadcastInDim S3x256x8 ![] bcast_S_S3x256x8 main_cst_6
  let main_v21 : IVec S3x256x8 1 := cmpf .olt main_v19 main_v20
  let main_c_7 : IVec S_ 1 := constantI S_ 1 1#1
  let main_v22 : IVec S_ 1 := (fun x v => Host.reduce IntOp.andi x v reducesTo_S3x256x8_S_d0_1_2 h_S_) main_v21 main_c_7
  let main_v23 : IVec S_ 1 := andi main_v18 main_v22
  let main_v24 : FVec F S3x256 .f32 := Host.absf main_arg8
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  main_v28

def fn {F : FTy → Type} [FloatOps F] (main_arg0 : IVec S16x4096 32) (main_arg1 : IVec S16x4096 32) (main_arg2 : IVec S16x4096x3 32) (main_arg3 : FVec F S256x8 .f32) (main_arg4 : FVec F S256 .f32) (main_arg5 : FVec F S256x8 .f32) (main_arg6 : FVec F S256 .f32) (main_arg7 : FVec F S3x256x8 .f32) (main_arg8 : FVec F S3x256 .f32) : IVec S_ 1 :=
  let main_v0 : FVec F S256x8 .f32 := Host.absf main_arg3
  let main_cst : FVec F S_ .f32 := constant S_ .f32 0x7F800000#32
  let main_v1 : FVec F S256x8 .f32 := broadcastInDim S256x8 ![] bcast_S_S256x8 main_cst
  let main_v2 : IVec S256x8 1 := cmpf .olt main_v0 main_v1
  let main_c : IVec S_ 1 := constantI S_ 1 1#1
  let main_v3 : IVec S_ 1 := (fun x v => Host.reduce IntOp.andi x v reducesTo_S256x8_S_d0_1 h_S_) main_v2 main_c
  let main_v4 : FVec F S256 .f32 := Host.absf main_arg4
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x8 .f32 := Host.absf main_arg5
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_v13 main_v16
-- ==== Kernel.lean ====
abbrev S16x4096 : Shape := ⟨2, ![16, 4096]⟩
abbrev S16x4096x3 : Shape := ⟨3, ![16, 4096, 3]⟩
abbrev S256x8 : Shape := ⟨2, ![256, 8]⟩
abbrev S256 : Shape := ⟨1, ![256]⟩
abbrev S3x256x8 : Shape := ⟨3, ![3, 256, 8]⟩
abbrev S3x256 : Shape := ⟨2, ![3, 256]⟩
abbrev S8192x8 : Shape := ⟨2, ![8192, 8]⟩
abbrev S8192x24 : Shape := ⟨2, ![8192, 24]⟩
abbrev S1x256 : Shape := ⟨2, ![1, 256]⟩
abbrev S8192x256 : Shape := ⟨2, ![8192, 256]⟩
abbrev S16x512x256 : Shape := ⟨3, ![16, 512, 256]⟩
abbrev S1024x8 : Shape := ⟨2, ![1024, 8]⟩
abbrev S1024x24 : Shape := ⟨2, ![1024, 24]⟩
abbrev S1024x256 : Shape := ⟨2, ![1024, 256]⟩
abbrev S256x8x3 : Shape := ⟨3, ![256, 8, 3]⟩
abbrev S256x24 : Shape := ⟨2, ![256, 24]⟩

abbrev nBuf : Space → Nat
  | .hbm => 16
  | .vmem => 14
  | .smem => 0
  | _ => 0

abbrev bufTy : (tb : Table) → Fin (tcTables nBuf tb) → BufTy
  | .hbm, ⟨0, _⟩ => ⟨S16x4096, .i32⟩
  | .hbm, ⟨1, _⟩ => ⟨S16x4096, .i32⟩
  | .hbm, ⟨2, _⟩ => ⟨S16x4096x3, .i32⟩
  | .hbm, ⟨3, _⟩ => ⟨S256x8, .f32⟩
  | .hbm, ⟨4, _⟩ => ⟨S256, .f32⟩
  | .hbm, ⟨5, _⟩ => ⟨S256x8, .f32⟩
  | .hbm, ⟨6, _⟩ => ⟨S256, .f32⟩
  | .hbm, ⟨7, _⟩ => ⟨S3x256x8, .f32⟩
  | .hbm, ⟨8, _⟩ => ⟨S3x256, .f32⟩
  | .hbm, ⟨9, _⟩ => ⟨S8192x8, .i32⟩
  | .hbm, ⟨10, _⟩ => ⟨S8192x8, .i32⟩
  | .hbm, ⟨11, _⟩ => ⟨S8192x24, .i32⟩
  | .hbm, ⟨12, _⟩ => ⟨S1x256, .f32⟩
  | .hbm, ⟨13, _⟩ => ⟨S1x256, .f32⟩
  | .hbm, ⟨14, _⟩ => ⟨S8192x256, .f32⟩
  | .hbm, ⟨15, _⟩ => ⟨S16x512x256, .f32⟩
  | .local _ .vmem, ⟨0, _⟩ => ⟨S1024x8, .i32⟩
  | .local _ .vmem, ⟨1, _⟩ => ⟨S1024x8, .i32⟩
  | .local _ .vmem, ⟨2, _⟩ => ⟨S1024x8, .i32⟩
  | .local _ .vmem, ⟨3, _⟩ => ⟨S1024x8, .i32⟩
  | .local _ .vmem, ⟨4, _⟩ => ⟨S1024x24, .i32⟩
  | .local _ .vmem, ⟨5, _⟩ => ⟨S1024x24, .i32⟩
  | .local _ .vmem, ⟨6, _⟩ => ⟨S256x8, .f32⟩
  | .local _ .vmem, ⟨7, _⟩ => ⟨S256x8, .f32⟩
  | .local _ .vmem, ⟨8, _⟩ => ⟨S3x256x8, .f32⟩
  | .local _ .vmem, ⟨9, _⟩ => ⟨S1x256, .f32⟩
  | .local _ .vmem, ⟨10, _⟩ => ⟨S1x256, .f32⟩
  | .local _ .vmem, ⟨11, _⟩ => ⟨S3x256, .f32⟩
  | .local _ .vmem, ⟨12, _⟩ => ⟨S1024x256, .f32⟩
  | .local _ .vmem, ⟨13, _⟩ => ⟨S1024x256, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x24 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16x4096_S8192x8 : S16x4096.ShapeCasts S8192x8
  shapeCasts_S16x4096x3_S8192x24 : S16x4096x3.ShapeCasts S8192x24
  shapeCasts_S256_S1x256 : S256.ShapeCasts S1x256
  shapeCasts_S8192x256_S16x512x256 : S8192x256.ShapeCasts S16x512x256
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S256x8_S256x8_0_0 : ∀ a, (![0, 0] : Fin 2 → Nat) a + S256x8.size a ≤ S256x8.size a
  h_S256x8 : 0 < S256x8.numel
  bitsLt_bf16_f32 : FTy.bits .bf16 < FTy.bits .f32
  inb_S3x256x8_S3x256x8_0_0_0 : ∀ a, (![0, 0, 0] : Fin 3 → Nat) a + S3x256x8.size a ≤ S3x256x8.size a
  h_S3x256x8 : 0 < S3x256x8.numel
  transposes_S3x256x8_p1_2_0_S256x8x3 : S3x256x8.Transposes [1, 2, 0] S256x8x3
  shapeCasts_S256x8x3_S256x24 : S256x8x3.ShapeCasts S256x24
  inb_S1024x24_S1024x24_0_0 : ∀ a, (![0, 0] : Fin 2 → Nat) a + S1024x24.size a ≤ S1024x24.size a
  h_S1024x24 : 0 < S1024x24.numel
  shapeCasts_S1024x24_S1024x24 : S1024x24.ShapeCasts S1024x24
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S3x256_S3x256_0_0 : ∀ a, (![0, 0] : Fin 2 → Nat) a + S3x256.size a ≤ S3x256.size a
  h_S3x256 : 0 < S3x256.numel
  reduces_S3x256_S256 : S3x256.Reduces [0] S256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x8_S256x8_S1024x256_1_1_0_0_n_n_wf : DotDims.WF S1024x8 S256x8 S1024x256 [1] [1] [0] [0] [] []
  dot_S1024x24_S256x24_S1024x256_1_1_0_0_n_n_wf : DotDims.WF S1024x24 S256x24 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S8192x8.size a
  hwx0_0 : ∀ i : grid0.Coords, EltTy.bits .i32 = 32 ∨ (Rect.block (s := S8192x8) S1024x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S8192x8.size a
  hwx0_1 : ∀ i : grid0.Coords, EltTy.bits .i32 = 32 ∨ (Rect.block (s := S8192x8) S1024x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x24.size a ≤ S8192x24.size a
  hwx0_2 : ∀ i : grid0.Coords, EltTy.bits .i32 = 32 ∨ (Rect.block (s := S8192x24) S1024x24.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S256x8.size a
  hwx0_4 : ∀ i : grid0.Coords, EltTy.bits .f32 = 32 ∨ (Rect.block (s := S256x8) S256x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256x8.size a ≤ S3x256x8.size a
  hwx0_5 : ∀ i : grid0.Coords, EltTy.bits .f32 = 32 ∨ (Rect.block (s := S3x256x8) S3x256x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256.size a ≤ S3x256.size a
  hwx0_8 : ∀ i : grid0.Coords, EltTy.bits .f32 = 32 ∨ (Rect.block (s := S3x256) S3x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x256.size a
  hwx0_9 : ∀ i : grid0.Coords, EltTy.bits .f32 = 32 ∨ (Rect.block (s := S8192x256) S1024x256.size (cc0_transform_9 i) (hinb0_9 i)).WholeWords (EltTy.packing .f32)

variable [Facts₀]

def dot_S1024x8_S256x8_S1024x256_1_1_0_0_n_n : DotDims S1024x8 S256x8 S1024x256 where
  lhsContracting := [1]
  rhsContracting := [1]
  lhsNonContracting := [0]
  rhsNonContracting := [0]
  lhsBatch := []
  rhsBatch := []
  wf := dot_S1024x8_S256x8_S1024x256_1_1_0_0_n_n_wf
def dot_S1024x24_S256x24_S1024x256_1_1_0_0_n_n : DotDims S1024x24 S256x24 S1024x256 where
  lhsContracting := [1]
  rhsContracting := [1]
  lhsNonContracting := [0]
  rhsNonContracting := [0]
  lhsBatch := []
  rhsBatch := []
  wf := dot_S1024x24_S256x24_S1024x256_1_1_0_0_n_n_wf

abbrev win0_0 : Pipeline.Window sig grid0 :=
  Pipeline.Window.ofSpec (Memref.whole main_call0_v0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S3x256x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v5) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x3 : Shape := ⟨3, ![16, 4096, 3]⟩
abbrev S256x8 : Shape := ⟨2, ![256, 8]⟩
abbrev S256 : Shape := ⟨1, ![256]⟩
abbrev S3x256x8 : Shape := ⟨3, ![3, 256, 8]⟩
abbrev S3x256 : Shape := ⟨2, ![3, 256]⟩
abbrev S16x512x8 : Shape := ⟨3, ![16, 512, 8]⟩
abbrev S16x512x256 : Shape := ⟨3, ![16, 512, 256]⟩
abbrev S1x1x256 : Shape := ⟨3, ![1, 1, 256]⟩
abbrev S16x4096x1 : Shape := ⟨3, ![16, 4096, 1]⟩
abbrev S1x256x8 : Shape := ⟨3, ![1, 256, 8]⟩
abbrev S1x256 : Shape := ⟨2, ![1, 256]⟩

abbrev nBuf : Space → Nat
  | .hbm => 59
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16x4096, .i32⟩
  | .hbm, ⟨2, _⟩ => ⟨S16x4096x3, .i32⟩
  | .hbm, ⟨3, _⟩ => ⟨S256x8, .f32⟩
  | .hbm, ⟨4, _⟩ => ⟨S256, .f32⟩
  | .hbm, ⟨5, _⟩ => ⟨S256x8, .f32⟩
  | .hbm, ⟨6, _⟩ => ⟨S256, .f32⟩
  | .hbm, ⟨7, _⟩ => ⟨S3x256x8, .f32⟩
  | .hbm, ⟨8, _⟩ => ⟨S3x256, .f32⟩
  | .hbm, ⟨9, _⟩ => ⟨S16x4096, .f32⟩
  | .hbm, ⟨10, _⟩ => ⟨S16x4096, .f32⟩
  | .hbm, ⟨11, _⟩ => ⟨S16x4096x3, .f32⟩
  | .hbm, ⟨12, _⟩ => ⟨S16x512x8, .f32⟩
  | .hbm, ⟨13, _⟩ => ⟨S16x512x256, .f32⟩
  | .hbm, ⟨14, _⟩ => ⟨S1x1x256, .f32⟩
  | .hbm, ⟨15, _⟩ => ⟨S16x512x256, .f32⟩
  | .hbm, ⟨16, _⟩ => ⟨S16x512x256, .f32⟩
  | .hbm, ⟨17, _⟩ => ⟨S16x512x8, .f32⟩
  | .hbm, ⟨18, _⟩ => ⟨S16x512x256, .f32⟩
  | .hbm, ⟨19, _⟩ => ⟨S1x1x256, .f32⟩
  | .hbm, ⟨20, _⟩ => ⟨S16x512x256, .f32⟩
  | .hbm, ⟨21, _⟩ => ⟨S16x512x256, .f32⟩
  | .hbm, ⟨22, _⟩ => ⟨S16x512x256, .f32⟩
  | .hbm, ⟨23, _⟩ => ⟨S16x4096x1, .f32⟩
  | .hbm, ⟨24, _⟩ => ⟨S16x4096, .f32⟩
  | .hbm, ⟨25, _⟩ => ⟨S1x256x8, .f32⟩
  | .hbm, ⟨26, _⟩ => ⟨S256x8, .f32⟩
  | .hbm, ⟨27, _⟩ => ⟨S1x256, .f32⟩
  | .hbm, ⟨28, _⟩ => ⟨S256, .f32⟩
  | .hbm, ⟨29, _⟩ => ⟨S16x512x8, .f32⟩
  | .hbm, ⟨30, _⟩ => ⟨S16x512x256, .f32⟩
  | .hbm, ⟨31, _⟩ => ⟨S1x1x256, .f32⟩
  | .hbm, ⟨32, _⟩ => ⟨S16x512x256, .f32⟩
  | .hbm, ⟨33, _⟩ => ⟨S16x512x256, .f32⟩
  | .hbm, ⟨34, _⟩ => ⟨S16x512x256, .f32⟩
  | .hbm, ⟨35, _⟩ => ⟨S16x4096x1, .f32⟩
  | .hbm, ⟨36, _⟩ => ⟨S16x4096, .f32⟩
  | .hbm, ⟨37, _⟩ => ⟨S1x256x8, .f32⟩
  | .hbm, ⟨38, _⟩ => ⟨S256x8, .f32⟩
  | .hbm, ⟨39, _⟩ => ⟨S1x256, .f32⟩
  | .hbm, ⟨40, _⟩ => ⟨S256, .f32⟩
  | .hbm, ⟨41, _⟩ => ⟨S16x512x8, .f32⟩
  | .hbm, ⟨42, _⟩ => ⟨S16x512x256, .f32⟩
  | .hbm, ⟨43, _⟩ => ⟨S1x1x256, .f32⟩
  | .hbm, ⟨44, _⟩ => ⟨S16x512x256, .f32⟩
  | .hbm, ⟨45, _⟩ => ⟨S16x512x256, .f32⟩
  | .hbm, ⟨46, _⟩ => ⟨S16x512x256, .f32⟩
  | .hbm, ⟨47, _⟩ => ⟨S16x4096x1, .f32⟩
  | .hbm, ⟨48, _⟩ => ⟨S16x4096, .f32⟩
  | .hbm, ⟨49, _⟩ => ⟨S1x256x8, .f32⟩
  | .hbm, ⟨50, _⟩ => ⟨S256x8, .f32⟩
  | .hbm, ⟨51, _⟩ => ⟨S1x256, .f32⟩
  | .hbm, ⟨52, _⟩ => ⟨S256, .f32⟩
  | .hbm, ⟨53, _⟩ => ⟨S16x512x8, .f32⟩
  | .hbm, ⟨54, _⟩ => ⟨S16x512x256, .f32⟩
  | .hbm, ⟨55, _⟩ => ⟨S1x1x256, .f32⟩
  | .hbm, ⟨56, _⟩ => ⟨S16x512x256, .f32⟩
  | .hbm, ⟨57, _⟩ => ⟨S16x512x256, .f32⟩
  | .hbm, ⟨58, _⟩ => ⟨S16x512x256, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]

class Facts₀ : Prop where
  shapeCasts_S16x4096_S16x512x8 : S16x4096.ShapeCasts S16x512x8
  bcast_S256_S1x1x256_2 : S256.BroadcastsInDim S1x1x256 (![2] : Fin 1 → Fin S1x1x256.rank)
  bcast_S1x1x256_S16x512x256_0_1_2 : S1x1x256.BroadcastsInDim S16x512x256 (![0, 1, 2] : Fin 3 → Fin S16x512x256.rank)
  slices_S16x4096x3_S16x4096x1_0_0_0 : S16x4096x3.Slices ![0, 0, 0] S16x4096x1
  shapeCasts_S16x4096x1_S16x4096 : S16x4096x1.ShapeCasts S16x4096
  slices_S3x256x8_S1x256x8_0_0_0 : S3x256x8.Slices ![0, 0, 0] S1x256x8
  shapeCasts_S1x256x8_S256x8 : S1x256x8.ShapeCasts S256x8
  slices_S3x256_S1x256_0_0 : S3x256.Slices ![0, 0] S1x256
  shapeCasts_S1x256_S256 : S1x256.ShapeCasts S256
  slices_S16x4096x3_S16x4096x1_0_0_1 : S16x4096x3.Slices ![0, 0, 1] S16x4096x1
  slices_S3x256x8_S1x256x8_1_0_0 : S3x256x8.Slices ![1, 0, 0] S1x256x8
  slices_S3x256_S1x256_1_0 : S3x256.Slices ![1, 0] S1x256
  slices_S16x4096x3_S16x4096x1_0_0_2 : S16x4096x3.Slices ![0, 0, 2] S16x4096x1
  slices_S3x256x8_S1x256x8_2_0_0 : S3x256x8.Slices ![2, 0, 0] S1x256x8
  slices_S3x256_S1x256_2_0 : S3x256.Slices ![2, 0] S1x256
  dot_S16x512x8_S256x8_S16x512x256_2_1_01_0_n_n_wf : DotDims.WF S16x512x8 S256x8 S16x512x256 [2] [1] [0, 1] [0] [] []

variable [Facts₀]

def dot_S16x512x8_S256x8_S16x512x256_2_1_01_0_n_n : DotDims S16x512x8 S256x8 S16x512x256 where
  lhsContracting := [2]
  rhsContracting := [1]
  lhsNonContracting := [0, 1]
  rhsNonContracting := [0]
  lhsBatch := []
  rhsBatch := []
  wf := dot_S16x512x8_S256x8_S16x512x256_2_1_01_0_n_n_wf

class Facts : Prop extends Facts₀ where

variable [Facts]
-- ==== Proof.Spec.lean ====
/-
  The strided embedding, index by index.

  Five convolutions of width eight and stride eight — of the value row, of the depth row, and of the three
  coordinate axes of the position rows — are summed with their biases into one array [16, 512, 256].  With the
  stride equal to the width, window t of a row of 4096 entries is the run of positions 8t .. 8t+7, so entry
  (b, t, c) of one convolution is the sum over s < 8 of the input at (b, 8t + s), read as a signed integer, times
  the weight at (c, s), plus the bias at c.

  `embed` states the result in the grouping in which the five convolutions are added one after the other;
  `fused` states it as one product over the forty columns of a window plus one summed bias.  They are equal in
  any commutative additive monoid: the only laws used are commutativity and associativity of the sum, and the
  splitting of a sum over 24 = 8 · 3 positions, interleaved by axis, into the three sums over the axis.
-/
import Idealize.ShloMosaic.PureOps.Ideal
import Idealize.ShloMosaic.Lib.ValueIdx

noncomputable section

open scoped BigOperators

namespace Cert.Embed

open Idealize.ShloMosaic Idealize.ShloMosaic.ValueIdx

/-- Position `8t + s` of a row of 4096: entry `s` of window `t`. -/
def at8 (t : Fin 512) (s : Fin 8) : Fin 4096 := ⟨8 * t.val + s.val, by have := t.isLt; have := s.isLt; omega⟩

/-- An integer entry as the extended real it denotes. -/
def asReal (w : BitVec 32) : EReal := ((w.toInt : ℝ) : EReal)

/-- One convolution at (b, t, c): the window's eight entries against the eight weights of channel c. -/
def conv (x : Fin 16 → Fin 4096 → BitVec 32) (W : Fin 256 → Fin 8 → EReal) (b : Fin 16) (t : Fin 512) (c : Fin 256) : EReal :=
  ∑ s : Fin 8, asReal (x b (at8 t s)) * W c s

/-- The embedding at (b, t, c), the five convolutions added with their biases one after the other. -/
def embedAt (value depth : IVec ⟨2, ![16, 4096]⟩ 32) (pos : IVec ⟨3, ![16, 4096, 3]⟩ 32)
    (Wv : FVec Ideal ⟨2, ![256, 8]⟩ .f32) (bv : FVec Ideal ⟨1, ![256]⟩ .f32)
    (Wd : FVec Ideal ⟨2, ![256, 8]⟩ .f32) (bd : FVec Ideal ⟨1, ![256]⟩ .f32)
    (Wp : FVec Ideal ⟨3, ![3, 256, 8]⟩ .f32) (bp : FVec Ideal ⟨2, ![3, 256]⟩ .f32)
    (b : Fin 16) (t : Fin 512) (c : Fin 256) : EReal :=
  ((((conv (fun b' l => value (ix2 b' l)) (fun c' s => Wv (ix2 c' s)) b t c + bv (ix1 c))
      + (conv (fun b' l => depth (ix2 b' l)) (fun c' s => Wd (ix2 c' s)) b t c + bd (ix1 c)))
      + (conv (fun b' l => pos (ix3 b' l (0 : Fin 3))) (fun c' s => Wp (ix3 (0 : Fin 3) c' s)) b t c + bp (ix2 (0 : Fin 3) c)))
      + (conv (fun b' l => pos (ix3 b' l (1 : Fin 3))) (fun c' s => Wp (ix3 (1 : Fin 3) c' s)) b t c + bp (ix2 (1 : Fin 3) c)))
      + (conv (fun b' l => pos (ix3 b' l (2 : Fin 3))) (fun c' s => Wp (ix3 (2 : Fin 3) c' s)) b t c + bp (ix2 (2 : Fin 3) c))

/-- The embedding as one array. -/
def embed (value depth : IVec ⟨2, ![16, 4096]⟩ 32) (pos : IVec ⟨3, ![16, 4096, 3]⟩ 32)
    (Wv : FVec Ideal ⟨2, ![256, 8]⟩ .f32) (bv : FVec Ideal ⟨1, ![256]⟩ .f32)
    (Wd : FVec Ideal ⟨2, ![256, 8]⟩ .f32) (bd : FVec Ideal ⟨1, ![256]⟩ .f32)
    (Wp : FVec Ideal ⟨3, ![3, 256, 8]⟩ .f32) (bp : FVec Ideal ⟨2, ![3, 256]⟩ .f32) :
    FVec Ideal ⟨3, ![16, 512, 256]⟩ .f32 :=
  fun i => embedAt value depth pos Wv bv Wd bd Wp bp (i 0) (i 1) (i 2)

/-- Column `3s + a` of a window of 24 interleaved entries: position `s`, axis `a`. -/
def col24 (s : Fin 8) (a : Fin 3) : Fin 24 := ⟨3 * s.val + a.val, by have := s.isLt; have := a.isLt; omega⟩
/-- The position of a column of the interleaved window. -/
def row24 (j : Fin 24) : Fin 8 := ⟨j.val / 3, by have := j.isLt; omega⟩
/-- The axis of a column of the interleaved window. -/
def axis24 (j : Fin 24) : Fin 3 := ⟨j.val % 3, Nat.mod_lt _ (by decide)⟩

theorem row24_col24 (s : Fin 8) (a : Fin 3) : row24 (col24 s a) = s :=
  Fin.ext (by show (3 * s.val + a.val) / 3 = s.val; have := a.isLt; omega)
theorem axis24_col24 (s : Fin 8) (a : Fin 3) : axis24 (col24 s a) = a :=
  Fin.ext (by show (3 * s.val + a.val) % 3 = a.val; have := a.isLt; omega)

/-- A sum over 24 = 8 · 3 interleaved columns is the three sums over the positions, one per axis. -/
theorem sum24_by_axis {M : Type*} [AddCommMonoid M] (f : Fin 24 → M) :
    ∑ j : Fin 24, f j = (∑ s : Fin 8, f (col24 s 0)) + (∑ s : Fin 8, f (col24 s 1)) + (∑ s : Fin 8, f (col24 s 2)) := by
  have e : ∀ (s : Fin 8) (a : Fin 3), (finProdFinEquiv (m := 8) (n := 3)) (s, a) = col24 s a := fun s a =>
    Fin.ext (by show a.val + 3 * s.val = 3 * s.val + a.val; omega)
  rw [← Equiv.sum_comp (finProdFinEquiv (m := 8) (n := 3)) f, Fintype.sum_prod_type]
  simp only [e, Fin.sum_univ_three, Finset.sum_add_distrib]

/-- What one block of 1024 rows holds at (p, q), from the block's own operands: the three products over the
    window's 8, 8 and 24 columns — the third against the position weights read at (axis, channel, position) — and
    the three biases, the position bias summed over its axis. -/
def blockAt (xv xd : IVec ⟨2, ![1024, 8]⟩ 32) (xp : IVec ⟨2, ![1024, 24]⟩ 32)
    (Wv Wd : FVec Ideal ⟨2, ![256, 8]⟩ .f32) (Wp : FVec Ideal ⟨3, ![3, 256, 8]⟩ .f32)
    (bv bd : FVec Ideal ⟨2, ![1, 256]⟩ .f32) (bp : FVec Ideal ⟨2, ![3, 256]⟩ .f32)
    (p : Fin 1024) (q : Fin 256) : EReal :=
  (((∑ d : Fin 8, asReal (xv (ix2 p d)) * Wv (ix2 q d)) + (∑ d : Fin 8, asReal (xd (ix2 p d)) * Wd (ix2 q d)))
      + ∑ j : Fin 24, asReal (xp (ix2 p j)) * Wp (ix3 (axis24 j) q (row24 j)))
    + ((bv (ix2 (0 : Fin 1) q) + bd (ix2 (0 : Fin 1) q)) + ∑ a : Fin 3, bp (ix2 a q))

/-- The same entry with the three position axes contracted in one sum over the 24 interleaved columns, and the
    biases summed first. -/
def fusedAt (value depth : IVec ⟨2, ![16, 4096]⟩ 32) (pos : IVec ⟨3, ![16, 4096, 3]⟩ 32)
    (Wv : FVec Ideal ⟨2, ![256, 8]⟩ .f32) (bv : FVec Ideal ⟨1, ![256]⟩ .f32)
    (Wd : FVec Ideal ⟨2, ![256, 8]⟩ .f32) (bd : FVec Ideal ⟨1, ![256]⟩ .f32)
    (Wp : FVec Ideal ⟨3, ![3, 256, 8]⟩ .f32) (bp : FVec Ideal ⟨2, ![3, 256]⟩ .f32)
    (b : Fin 16) (t : Fin 512) (c : Fin 256) : EReal :=
  (((∑ d : Fin 8, asReal (value (ix2 b (at8 t d))) * Wv (ix2 c d)) + (∑ d : Fin 8, asReal (depth (ix2 b (at8 t d))) * Wd (ix2 c d)))
      + ∑ j : Fin 24, asReal (pos (ix3 b (at8 t (row24 j)) (axis24 j))) * Wp (ix3 (axis24 j) c (row24 j)))
    + ((bv (ix1 c) + bd (ix1 c)) + ∑ a : Fin 3, bp (ix2 a c))

/-- The fused form is the embedding: a regrouping of one finite sum in a commutative monoid. -/
theorem fusedAt_eq_embedAt (value depth : IVec ⟨2, ![16, 4096]⟩ 32) (pos : IVec ⟨3, ![16, 4096, 3]⟩ 32)
    (Wv : FVec Ideal ⟨2, ![256, 8]⟩ .f32) (bv : FVec Ideal ⟨1, ![256]⟩ .f32)
    (Wd : FVec Ideal ⟨2, ![256, 8]⟩ .f32) (bd : FVec Ideal ⟨1, ![256]⟩ .f32)
    (Wp : FVec Ideal ⟨3, ![3, 256, 8]⟩ .f32) (bp : FVec Ideal ⟨2, ![3, 256]⟩ .f32)
    (b : Fin 16) (t : Fin 512) (c : Fin 256) :
    fusedAt value depth pos Wv bv Wd bd Wp bp b t c = embedAt value depth pos Wv bv Wd bd Wp bp b t c := by
  unfold fusedAt embedAt conv
  rw [sum24_by_axis, Fin.sum_univ_three]
  simp only [row24_col24, axis24_col24]
  abel

end Cert.Embed

end
-- ==== Proof.RefIsEmbed.lean ====
/-
  The reference program's result is the embedding.

  The reference computes each of the five convolutions the same way: the integer row is converted to reals, its
  4096 entries are regrouped into 512 windows of eight, the windows are contracted against the eight weights of
  each channel, and the bias, broadcast over rows and windows, is added.  For the position rows the three axes
  are first sliced apart (and the unit axis the slice leaves is dropped), and likewise the three slices of the
  position weights and biases.  Entry k of window t of row b of the regrouped array sits at flat position
  (b · 512 + t) · 8 + k = b · 4096 + (8t + k), that is, at column 8t + k of row b: the window the embedding reads.
  The five results are then added one after the other in the grouping the embedding is stated in.
-/
import proofs.«152178_g44538810860311_cont_8to1c4_171_5_alg».proof.Proof.Gen.ReferenceIdeal.Read
import proofs.«152178_g44538810860311_cont_8to1c4_171_5_alg».proof.Proof.Spec

noncomputable section

open scoped BigOperators

namespace Cert.Embed.Ref

open Idealize.ShloMosaic Idealize.ShloMosaic.ValueIdx
open Cert.ReferenceIdeal Cert.ReferenceIdeal.Read

/-- The value convolution with its bias, at (b, t, c). -/
theorem value_term (x0 : (⟨S16x4096, .i32⟩ : BufTy).Contents (Elt Ideal)) (x3 : (⟨S256x8, .f32⟩ : BufTy).Contents (Elt Ideal))
    (x4 : (⟨S256, .f32⟩ : BufTy).Contents (Elt Ideal)) (b : Fin 16) (t : Fin 512) (c : Fin 256) :
    val_main_v7 (F := Ideal) x0 x3 x4 (ix3 b t c)
      = conv (fun b' l => x0 (ix2 b' l)) (fun c' s => x3 (ix2 c' s)) b t c + x4 (ix1 c) := by
  rw [val_main_v7_apply, val_main_v4_apply, val_main_v6_apply, val_main_v5_apply, Ideal.addf_def]
  unfold conv
  congr 1
  · refine Finset.sum_congr rfl fun k _ => ?_
    rw [val_main_v3_apply, val_main_v0_apply]
    -- entry k of window t of row b sits at flat position (b·512 + t)·8 + k = b·4096 + (8t + k)
    have e1 : idx_main_v3 (lidx_main_v4 (ix3 b t c) k) = ix2 b (at8 t k) := funext fun a => Fin.ext (by
      have hb := b.isLt; have ht := t.isLt; have hk := k.isLt
      match a with
      | ⟨0, _⟩ => show ((b.val * 512 + t.val) * 8 + k.val) / 4096 = b.val; omega
      | ⟨1, _⟩ => show ((b.val * 512 + t.val) * 8 + k.val) % 4096 = 8 * t.val + k.val; omega)
    have e2 : ridx_main_v4 (ix3 b t c) k = ix2 c k := funext fun a => Fin.ext (by
      match a with
      | ⟨0, _⟩ => rfl
      | ⟨1, _⟩ => rfl)
    rw [e1, e2]; rfl
  · have e3 : idx_main_v5 (idx_main_v6 (ix3 b t c)) = ix1 c := funext fun a => Fin.ext (by
      match a with
      | ⟨0, _⟩ => rfl)
    rw [e3]

/-- The depth convolution with its bias, at (b, t, c). -/
theorem depth_term (x1 : (⟨S16x4096, .i32⟩ : BufTy).Contents (Elt Ideal)) (x5 : (⟨S256x8, .f32⟩ : BufTy).Contents (Elt Ideal))
    (x6 : (⟨S256, .f32⟩ : BufTy).Contents (Elt Ideal)) (b : Fin 16) (t : Fin 512) (c : Fin 256) :
    val_main_v12 (F := Ideal) x1 x5 x6 (ix3 b t c)
      = conv (fun b' l => x1 (ix2 b' l)) (fun c' s => x5 (ix2 c' s)) b t c + x6 (ix1 c) := by
  rw [val_main_v12_apply, val_main_v9_apply, val_main_v11_apply, val_main_v10_apply, Ideal.addf_def]
  unfold conv
  congr 1
  · refine Finset.sum_congr rfl fun k _ => ?_
    rw [val_main_v8_apply, val_main_v1_apply]
    -- entry k of window t of row b sits at flat position (b·512 + t)·8 + k = b·4096 + (8t + k)
    have e1 : idx_main_v8 (lidx_main_v9 (ix3 b t c) k) = ix2 b (at8 t k) := funext fun a => Fin.ext (by
      have hb := b.isLt; have ht := t.isLt; have hk := k.isLt
      match a with
      | ⟨0, _⟩ => show ((b.val * 512 + t.val) * 8 + k.val) / 4096 = b.val; omega
      | ⟨1, _⟩ => show ((b.val * 512 + t.val) * 8 + k.val) % 4096 = 8 * t.val + k.val; omega)
    have e2 : ridx_main_v9 (ix3 b t c) k = ix2 c k := funext fun a => Fin.ext (by
      match a with
      | ⟨0, _⟩ => rfl
      | ⟨1, _⟩ => rfl)
    rw [e1, e2]; rfl
  · have e3 : idx_main_v10 (idx_main_v11 (ix3 b t c)) = ix1 c := funext fun a => Fin.ext (by
      match a with
      | ⟨0, _⟩ => rfl)
    rw [e3]

/-- The convolution of axis 0 of the positions with its bias, at (b, t, c). -/
theorem pos0_term (x2 : (⟨S16x4096x3, .i32⟩ : BufTy).Contents (Elt Ideal)) (x7 : (⟨S3x256x8, .f32⟩ : BufTy).Contents (Elt Ideal))
    (x8 : (⟨S3x256, .f32⟩ : BufTy).Contents (Elt Ideal)) (b : Fin 16) (t : Fin 512) (c : Fin 256) :
    val_main_v24 (F := Ideal) x2 x7 x8 (ix3 b t c)
      = conv (fun b' l => x2 (ix3 b' l (0 : Fin 3))) (fun c' s => x7 (ix3 (0 : Fin 3) c' s)) b t c + x8 (ix2 (0 : Fin 3) c) := by
  rw [val_main_v24_apply, val_main_v21_apply, val_main_v23_apply, val_main_v22_apply, val_main_v19_apply,
    val_main_v18_apply, Ideal.addf_def]
  unfold conv
  congr 1
  · refine Finset.sum_congr rfl fun k _ => ?_
    rw [val_main_v20_apply, val_main_v15_apply, val_main_v14_apply, val_main_v2_apply, val_main_v17_apply, val_main_v16_apply]
    -- the slice keeps axis 0; dropping its unit axis and regrouping the row into windows leaves position 8t + k
    have e1 : idx_main_v14 (idx_main_v15 (idx_main_v20 (lidx_main_v21 (ix3 b t c) k))) = ix3 b (at8 t k) (0 : Fin 3) :=
      funext fun a => Fin.ext (by
        have hb := b.isLt; have ht := t.isLt; have hk := k.isLt
        match a with
        | ⟨0, _⟩ =>
          show ((((b.val * 512 + t.val) * 8 + k.val) / 4096) * 4096 + ((b.val * 512 + t.val) * 8 + k.val) % 4096) / 4096 = b.val
          omega
        | ⟨1, _⟩ =>
          show ((((b.val * 512 + t.val) * 8 + k.val) / 4096) * 4096 + ((b.val * 512 + t.val) * 8 + k.val) % 4096) / 1 % 4096 = 8 * t.val + k.val
          omega
        | ⟨2, _⟩ => rfl)
    -- slice 0 of the weights, its unit axis dropped: (c, k) is read at (0, c, k)
    have e2 : idx_main_v16 (idx_main_v17 (ridx_main_v21 (ix3 b t c) k)) = ix3 (0 : Fin 3) c k :=
      funext fun a => Fin.ext (by
        have hc := c.isLt; have hk := k.isLt
        match a with
        | ⟨0, _⟩ => rfl
        | ⟨1, _⟩ => show (c.val * 8 + k.val) / 8 % 256 = c.val; omega
        | ⟨2, _⟩ => show (c.val * 8 + k.val) % 8 = k.val; omega)
    rw [e1, e2]; rfl
  · have e3 : idx_main_v18 (idx_main_v19 (idx_main_v22 (idx_main_v23 (ix3 b t c)))) = ix2 (0 : Fin 3) c :=
      funext fun a => Fin.ext (by
        have hc := c.isLt
        match a with
        | ⟨0, _⟩ => rfl
        | ⟨1, _⟩ => show c.val % 256 = c.val; omega)
    rw [e3]

/-- The convolution of axis 1 of the positions with its bias, at (b, t, c). -/
theorem pos1_term (x2 : (⟨S16x4096x3, .i32⟩ : BufTy).Contents (Elt Ideal)) (x7 : (⟨S3x256x8, .f32⟩ : BufTy).Contents (Elt Ideal))
    (x8 : (⟨S3x256, .f32⟩ : BufTy).Contents (Elt Ideal)) (b : Fin 16) (t : Fin 512) (c : Fin 256) :
    val_main_v36 (F := Ideal) x2 x7 x8 (ix3 b t c)
      = conv (fun b' l => x2 (ix3 b' l (1 : Fin 3))) (fun c' s => x7 (ix3 (1 : Fin 3) c' s)) b t c + x8 (ix2 (1 : Fin 3) c) := by
  rw [val_main_v36_apply, val_main_v33_apply, val_main_v35_apply, val_main_v34_apply, val_main_v31_apply,
    val_main_v30_apply, Ideal.addf_def]
  unfold conv
  congr 1
  · refine Finset.sum_congr rfl fun k _ => ?_
    rw [val_main_v32_apply, val_main_v27_apply, val_main_v26_apply, val_main_v2_apply, val_main_v29_apply, val_main_v28_apply]
    -- the slice keeps axis 1; dropping its unit axis and regrouping the row into windows leaves position 8t + k
    have e1 : idx_main_v26 (idx_main_v27 (idx_main_v32 (lidx_main_v33 (ix3 b t c) k))) = ix3 b (at8 t k) (1 : Fin 3) :=
      funext fun a => Fin.ext (by
        have hb := b.isLt; have ht := t.isLt; have hk := k.isLt
        match a with
        | ⟨0, _⟩ =>
          show ((((b.val * 512 + t.val) * 8 + k.val) / 4096) * 4096 + ((b.val * 512 + t.val) * 8 + k.val) % 4096) / 4096 = b.val
          omega
        | ⟨1, _⟩ =>
          show ((((b.val * 512 + t.val) * 8 + k.val) / 4096) * 4096 + ((b.val * 512 + t.val) * 8 + k.val) % 4096) / 1 % 4096 = 8 * t.val + k.val
          omega
        | ⟨2, _⟩ => rfl)
    -- slice 1 of the weights, its unit axis dropped: (c, k) is read at (1, c, k)
    have e2 : idx_main_v28 (idx_main_v29 (ridx_main_v33 (ix3 b t c) k)) = ix3 (1 : Fin 3) c k :=
      funext fun a => Fin.ext (by
        have hc := c.isLt; have hk := k.isLt
        match a with
        | ⟨0, _⟩ => rfl
        | ⟨1, _⟩ => show (c.val * 8 + k.val) / 8 % 256 = c.val; omega
        | ⟨2, _⟩ => show (c.val * 8 + k.val) % 8 = k.val; omega)
    rw [e1, e2]; rfl
  · have e3 : idx_main_v30 (idx_main_v31 (idx_main_v34 (idx_main_v35 (ix3 b t c)))) = ix2 (1 : Fin 3) c :=
      funext fun a => Fin.ext (by
        have hc := c.isLt
        match a with
        | ⟨0, _⟩ => rfl
        | ⟨1, _⟩ => show c.val % 256 = c.val; omega)
    rw [e3]

/-- The convolution of axis 2 of the positions with its bias, at (b, t, c). -/
theorem pos2_term (x2 : (⟨S16x4096x3, .i32⟩ : BufTy).Contents (Elt Ideal)) (x7 : (⟨S3x256x8, .f32⟩ : BufTy).Contents (Elt Ideal))
    (x8 : (⟨S3x256, .f32⟩ : BufTy).Contents (Elt Ideal)) (b : Fin 16) (t : Fin 512) (c : Fin 256) :
    val_main_v48 (F := Ideal) x2 x7 x8 (ix3 b t c)
      = conv (fun b' l => x2 (ix3 b' l (2 : Fin 3))) (fun c' s => x7 (ix3 (2 : Fin 3) c' s)) b t c + x8 (ix2 (2 : Fin 3) c) := by
  rw [val_main_v48_apply, val_main_v45_apply, val_main_v47_apply, val_main_v46_apply, val_main_v43_apply,
    val_main_v42_apply, Ideal.addf_def]
  unfold conv
  congr 1
  · refine Finset.sum_congr rfl fun k _ => ?_
    rw [val_main_v44_apply, val_main_v39_apply, val_main_v38_apply, val_main_v2_apply, val_main_v41_apply, val_main_v40_apply]
    -- the slice keeps axis 2; dropping its unit axis and regrouping the row into windows leaves position 8t + k
    have e1 : idx_main_v38 (idx_main_v39 (idx_main_v44 (lidx_main_v45 (ix3 b t c) k))) = ix3 b (at8 t k) (2 : Fin 3) :=
      funext fun a => Fin.ext (by
        have hb := b.isLt; have ht := t.isLt; have hk := k.isLt
        match a with
        | ⟨0, _⟩ =>
          show ((((b.val * 512 + t.val) * 8 + k.val) / 4096) * 4096 + ((b.val * 512 + t.val) * 8 + k.val) % 4096) / 4096 = b.val
          omega
        | ⟨1, _⟩ =>
          show ((((b.val * 512 + t.val) * 8 + k.val) / 4096) * 4096 + ((b.val * 512 + t.val) * 8 + k.val) % 4096) / 1 % 4096 = 8 * t.val + k.val
          omega
        | ⟨2, _⟩ => rfl)
    -- slice 2 of the weights, its unit axis dropped: (c, k) is read at (2, c, k)
    have e2 : idx_main_v40 (idx_main_v41 (ridx_main_v45 (ix3 b t c) k)) = ix3 (2 : Fin 3) c k :=
      funext fun a => Fin.ext (by
        have hc := c.isLt; have hk := k.isLt
        match a with
        | ⟨0, _⟩ => rfl
        | ⟨1, _⟩ => show (c.val * 8 + k.val) / 8 % 256 = c.val; omega
        | ⟨2, _⟩ => show (c.val * 8 + k.val) % 8 = k.val; omega)
    rw [e1, e2]; rfl
  · have e3 : idx_main_v42 (idx_main_v43 (idx_main_v46 (idx_main_v47 (ix3 b t c)))) = ix2 (2 : Fin 3) c :=
      funext fun a => Fin.ext (by
        have hc := c.isLt
        match a with
        | ⟨0, _⟩ => rfl
        | ⟨1, _⟩ => show c.val % 256 = c.val; omega)
    rw [e3]

/-- The reference program computes the embedding: its last value is the sum, in the reference's own grouping, of the
    five convolutions with their biases. -/
theorem val_eq_embed (x0 x1 : (⟨S16x4096, .i32⟩ : BufTy).Contents (Elt Ideal)) (x2 : (⟨S16x4096x3, .i32⟩ : BufTy).Contents (Elt Ideal))
    (x3 : (⟨S256x8, .f32⟩ : BufTy).Contents (Elt Ideal)) (x4 : (⟨S256, .f32⟩ : BufTy).Contents (Elt Ideal))
    (x5 : (⟨S256x8, .f32⟩ : BufTy).Contents (Elt Ideal)) (x6 : (⟨S256, .f32⟩ : BufTy).Contents (Elt Ideal))
    (x7 : (⟨S3x256x8, .f32⟩ : BufTy).Contents (Elt Ideal)) (x8 : (⟨S3x256, .f32⟩ : BufTy).Contents (Elt Ideal)) :
    val_main_v49 (F := Ideal) x0 x1 x2 x3 x4 x5 x6 x7 x8 = Cert.Embed.embed x0 x1 x2 x3 x4 x5 x6 x7 x8 := by
  funext i
  obtain ⟨b, t, c, rfl⟩ : ∃ (b : Fin 16) (t : Fin 512) (c : Fin 256), i = ix3 b t c := ⟨i 0, i 1, i 2, eq_ix3 i⟩
  show _ = embedAt x0 x1 x2 x3 x4 x5 x6 x7 x8 b t c
  unfold embedAt
  rw [val_main_v49_apply, val_main_v37_apply, val_main_v25_apply, val_main_v13_apply, value_term, depth_term,
    pos0_term, pos1_term, pos2_term]
  simp only [Ideal.addf_def]

end Cert.Embed.Ref

end
-- ==== Proof.Windows.lean ====
/-
  The arrays the region reads, in terms of the program's arguments.

  Before the region the program regroups its integer inputs without moving an entry: the value and depth arrays
  [16, 4096] become 8192 rows of 8 (row n is window n % 512 of batch n / 512, because 4096 = 512 · 8), the position
  array [16, 4096, 3] becomes 8192 rows of 24 (column j of row n is position j / 3 of that window on axis j % 3,
  the three axes being innermost), and the two biases [256] become single rows [1, 256].  The weights and the
  position bias are read as given.
-/
import proofs.«152178_g44538810860311_cont_8to1c4_171_5_alg».proof.Proof.Gen.KernelIdeal.Frame
import Idealize.ShloMosaic.Lib.StableHlo.Run
import Idealize.ShloMosaic.Lib.Pipeline.Value
import Idealize.ShloMosaic.Lib.ValueIdx
import proofs.«152178_g44538810860311_cont_8to1c4_171_5_alg».proof.Proof.Spec

noncomputable section
open scoped BigOperators
namespace Cert.Embed.Windows
open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The value array as the region finds it: the argument viewed as 8192 rows of 8. -/
theorem V_v0 (c : Dev nD) : (V m c main_call0_v0 : S8192x8.Idx → BitVec 32)
    = shapeCast S8192x8 (m ((c : Thread nD τ).loc main_arg0)) shapeCasts_S16x4096_S8192x8 := by
  show StableHlo.after hostOps0 (fun b => m (c, b)) (Proc.devRef .tc main_call0_v0) = _
  after_results
  rfl
/-- The depth array as the region finds it: the argument viewed as 8192 rows of 8. -/
theorem V_v1 (c : Dev nD) : (V m c main_call0_v1 : S8192x8.Idx → BitVec 32)
    = shapeCast S8192x8 (m ((c : Thread nD τ).loc main_arg1)) shapeCasts_S16x4096_S8192x8 := by
  show StableHlo.after hostOps0 (fun b => m (c, b)) (Proc.devRef .tc main_call0_v1) = _
  after_results
  rfl
/-- The position array as the region finds it: the argument viewed as 8192 rows of 24. -/
theorem V_v2 (c : Dev nD) : (V m c main_call0_v2 : S8192x24.Idx → BitVec 32)
    = shapeCast S8192x24 (m ((c : Thread nD τ).loc main_arg2)) shapeCasts_S16x4096x3_S8192x24 := by
  show StableHlo.after hostOps0 (fun b => m (c, b)) (Proc.devRef .tc main_call0_v2) = _
  after_results
  rfl
/-- The value bias as the region finds it: the argument viewed as one row. -/
theorem V_v3 (c : Dev nD) : (V m c main_call0_v3 : S1x256.Idx → EReal)
    = shapeCast S1x256 (m ((c : Thread nD τ).loc main_arg4)) shapeCasts_S256_S1x256 := by
  show StableHlo.after hostOps0 (fun b => m (c, b)) (Proc.devRef .tc main_call0_v3) = _
  after_results
  rfl
/-- The depth bias as the region finds it: the argument viewed as one row. -/
theorem V_v4 (c : Dev nD) : (V m c main_call0_v4 : S1x256.Idx → EReal)
    = shapeCast S1x256 (m ((c : Thread nD τ).loc main_arg6)) shapeCasts_S256_S1x256 := by
  show StableHlo.after hostOps0 (fun b => m (c, b)) (Proc.devRef .tc main_call0_v4) = _
  after_results
  rfl

/-- Row `n` of the [8192, 8] view of a [16, 4096] array is window `n % 512` of batch `n / 512`. -/
theorem rows8_apply (x : IVec S16x4096 32) (n : Fin 8192) (d : Fin 8) :
    shapeCast S8192x8 x shapeCasts_S16x4096_S8192x8 (ix2 n d)
      = x (ix2 (⟨n.val / 512, by have := n.isLt; omega⟩ : Fin 16) (Cert.Embed.at8 ⟨n.val % 512, Nat.mod_lt _ (by decide)⟩ d)) :=
  shapeCast_apply x shapeCasts_S16x4096_S8192x8 (ix2 n d) _ (by
    rewrite [Shape.rowMajor_val_two, Shape.rowMajor_val_two]
    have := n.isLt; have := d.isLt
    show n.val / 512 * 4096 + (8 * (n.val % 512) + d.val) = n.val * 8 + d.val
    omega)

/-- Row `n` of the [8192, 24] view of a [16, 4096, 3] array: column `j` is position `j / 3` of window `n % 512`, axis `j % 3`. -/
theorem rows24_apply (x : IVec S16x4096x3 32) (n : Fin 8192) (j : Fin 24) :
    shapeCast S8192x24 x shapeCasts_S16x4096x3_S8192x24 (ix2 n j)
      = x (ix3 (⟨n.val / 512, by have := n.isLt; omega⟩ : Fin 16) (Cert.Embed.at8 ⟨n.val % 512, Nat.mod_lt _ (by decide)⟩ (Cert.Embed.row24 j)) (Cert.Embed.axis24 j)) :=
  shapeCast_apply x shapeCasts_S16x4096x3_S8192x24 (ix2 n j) _ (by
    rewrite [Shape.rowMajor_val_three, Shape.rowMajor_val_two]
    have := n.isLt; have := j.isLt
    show (n.val / 512 * 4096 + (8 * (n.val % 512) + j.val / 3)) * 3 + j.val % 3 = n.val * 24 + j.val
    omega)

/-- A bias [256] viewed as one row [1, 256]. -/
theorem row1_apply (x : FVec Ideal S256 .f32) (q : Fin 256) :
    shapeCast S1x256 x shapeCasts_S256_S1x256 (ix2 (0 : Fin 1) q) = x (ix1 q) :=
  shapeCast_apply x shapeCasts_S256_S1x256 (ix2 (0 : Fin 1) q) _ (by
    rewrite [Shape.rowMajor_val_one, Shape.rowMajor_val_two]
    show q.val = 0 * 256 + q.val
    omega)

end Cert.Embed.Windows
end
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.BlockPayload.lean ====
/-
  What the kernel body computes for one block of 1024 rows, entry by entry.

  The body converts the three integer blocks (value windows [1024, 8], depth windows [1024, 8], interleaved position
  windows [1024, 24]) to reals, multiplies each with its weight array along the shared second axis, adds the three
  products, and adds the three biases broadcast over the rows. Read at (p, q):
    * a product of an [a, k] array with a [b, k] array along k, from the zero accumulator, is the inner product of
      row p of the first with row q of the second;
    * the position weights [3, 256, 8] enter transposed to [256, 8, 3] and flattened to [256, 24], so column
      j = 3·s + a of row q is the weight of axis a, channel q, position s;
    * the position bias [3, 256] enters summed over its first axis.
  One lemma per operation that is not pointwise, each over variables; the last theorem joins them.
-/
import proofs.«152178_g44538810860311_cont_8to1c4_171_5_alg».proof.Proof.Gen.KernelIdeal.Skeleton
import proofs.«152178_g44538810860311_cont_8to1c4_171_5_alg».proof.Proof.Spec
import proofs.«152178_g44538810860311_cont_8to1c4_171_5_alg».proof.Proof.LibMatmulRowsRead
import Idealize.ShloMosaic.Lib.Pipeline.Value
import Idealize.ShloMosaic.Lib.ValueLayout
import Idealize.ShloMosaic.PureOps.Ideal.Laws

noncomputable section

open scoped BigOperators

namespace Cert.Embed.Block

open Idealize.ShloMosaic Idealize.ShloMosaic.ValueIdx
open Cert.KernelIdeal Cert.KernelIdeal.Gen

/-- The position weights [3, 256, 8], transposed by [1, 2, 0] to [256, 8, 3] and flattened to [256, 24], read at
    (q, j): column j = 3·s + a of the flattened row q is the weight of axis a, channel q, position s. -/
theorem weights_apply (Wp : FVec Ideal S3x256x8 .f32) (q : Fin 256) (j : Fin 24) :
    shapeCast S256x24 (transpose S256x8x3 [1, 2, 0] Wp transposes_S3x256x8_p1_2_0_S256x8x3) shapeCasts_S256x8x3_S256x24 (ix2 q j)
      = Wp (ix3 (axis24 j) q (row24 j)) := by
  refine (shapeCast_apply _ _ (ix2 q j) (ix3 q (row24 j) (axis24 j)) ?_).trans ?_
  · rw [Shape.rowMajor_val_two, Shape.rowMajor_val_three]
    show (q.val * 8 + j.val / 3) * 3 + j.val % 3 = q.val * 24 + j.val
    omega
  · exact transpose_apply _ _ _ _ _ (fun b => match b with | ⟨0, _⟩ => rfl | ⟨1, _⟩ => rfl | ⟨2, _⟩ => rfl)

/-- A product of a [1024, 8] integer block, read as reals, with a [256, 8] weight block along their second axes,
    from the zero accumulator, at (p, q): the inner product of row p with row q. -/
theorem matmul8_apply (x : Vec Ideal S1024x8 .i32) (w : Vec Ideal S256x8 .f32) (p : Fin 1024) (q : Fin 256) :
    matmul dot_S1024x8_S256x8_S1024x256_1_1_0_0_n_n none
        (sitofp (F := Ideal) .bf16 (shapeCast S1024x8 x shapeCasts_S1024x8_S1024x8))
        (truncf .bf16 w bitsLt_bf16_f32)
        (constant (F := Ideal) S1024x256 .f32 0x00000000#32) (ix2 p q)
      = ∑ d : Fin 8, asReal (x (ix2 p d)) * w (ix2 q d) := by
  rw [shapeCast_self]
  refine (matmul_rows_ix2_apply dot_S1024x8_S256x8_S1024x256_1_1_0_0_n_n rfl rfl rfl rfl rfl rfl none _ _ p q).trans ?_
  exact Finset.sum_congr rfl fun d _ => rfl

/-- The same for the [1024, 24] block of interleaved positions against a [256, 24] weight array. -/
theorem matmul24_apply (x : Vec Ideal S1024x24 .i32) (w : FVec Ideal S256x24 .f32) (p : Fin 1024) (q : Fin 256) :
    matmul dot_S1024x24_S256x24_S1024x256_1_1_0_0_n_n none
        (sitofp (F := Ideal) .bf16 (shapeCast S1024x24 x shapeCasts_S1024x24_S1024x24))
        (truncf .bf16 w bitsLt_bf16_f32)
        (constant (F := Ideal) S1024x256 .f32 0x00000000#32) (ix2 p q)
      = ∑ j : Fin 24, asReal (x (ix2 p j)) * w (ix2 q j) := by
  rw [shapeCast_self]
  refine (matmul_rows_ix2_apply dot_S1024x24_S256x24_S1024x256_1_1_0_0_n_n rfl rfl rfl rfl rfl rfl none _ _ p q).trans ?_
  exact Finset.sum_congr rfl fun d _ => rfl

/-- The [3, 256] bias summed over its first axis, at channel q: the sum of its three rows' entries. -/
theorem biasSum_apply (bp : Vec Ideal S3x256 .f32) (q : Fin 256) :
    multiReduction (F := Ideal) .add [0] S256 bp 0x00000000#32 reduces_S3x256_S256 (.inl rfl) rfl (ix1 q)
      = ∑ a : Fin 3, bp (ix2 a q) := by
  refine (Ideal.multiReduction_add_single bp 0x00000000#32 reduces_S3x256_S256 (.inl rfl) rfl (ix1 q)).trans ?_
  exact Finset.sum_congr rfl fun a _ => congrArg bp (funext fun ax => match ax with | ⟨0, _⟩ => rfl | ⟨1, _⟩ => rfl)

/-- The three biases added and broadcast over the 1024 rows, at (p, q). -/
theorem bias_apply (bv bd : Vec Ideal S1x256 .f32) (bp : Vec Ideal S3x256 .f32) (p : Fin 1024) (q : Fin 256) :
    broadcastTo S1024x256
        (addf (addf (shapeCast S1x256 bv shapeCasts_S1x256_S1x256) (shapeCast S1x256 bd shapeCasts_S1x256_S1x256))
          (shapeCast S1x256 (multiReduction (F := Ideal) .add [0] S256 bp 0x00000000#32 reduces_S3x256_S256 (.inl rfl) rfl)
            shapeCasts_S256_S1x256))
        broadcasts_S1x256_S1024x256 (ix2 p q)
      = (bv (ix2 (0 : Fin 1) q) + bd (ix2 (0 : Fin 1) q)) + ∑ a : Fin 3, bp (ix2 a q) := by
  rw [shapeCast_self, shapeCast_self]
  refine (broadcastTo_1b_ab_apply _ _ p q).trans ?_
  refine congrArg₂ (· + ·) rfl ?_
  refine (shapeCast_a_1a_apply _ _ 0 q).trans ?_
  exact biasSum_apply bp q

/-- What the kernel body computes for one block, at (p, q): the three products — of the value and depth windows'
    eight columns and of the 24 interleaved position columns, the last against the position weights read at
    (axis, channel, position) — plus the three biases, the position bias summed over its axis. -/
theorem pay_apply (v0 : Vec Ideal S1024x8 .i32) (v3 : Vec Ideal S256x8 .f32) (v6 : Vec Ideal S1024x8 .i32)
    (v9 : Vec Ideal S256x8 .f32) (v13 : Vec Ideal S3x256x8 .f32) (v16 : Vec Ideal S1024x24 .i32)
    (v22 v24 : Vec Ideal S1x256 .f32) (v27 : Vec Ideal S3x256 .f32) (p : Fin 1024) (q : Fin 256) :
    k0_pay1 (F := Ideal) v0 v3 v6 v9 v13 v16 v22 v24 v27 (ix2 p q)
      = Cert.Embed.blockAt v0 v6 v16 v3 v9 v13 v22 v24 v27 p q := by
  unfold k0_pay1 Cert.Embed.blockAt
  refine congrArg₂ (· + ·)
    (congrArg₂ (· + ·) (congrArg₂ (· + ·) (matmul8_apply v0 v3 p q) (matmul8_apply v6 v9 p q)) ?_)
    (bias_apply v22 v24 v27 p q)
  refine (matmul24_apply v16 _ p q).trans ?_
  exact Finset.sum_congr rfl fun j _ => congrArg (asReal (v16 (ix2 p j)) * ·) (weights_apply v13 q j)

end Cert.Embed.Block

end
-- ==== Proof.Blocks.lean ====
/-
  From blocks to the whole output array.

  The region runs over eight grid points; point g reads rows 1024 g .. 1024 g + 1023 of the three regrouped integer
  arrays, reads the weights and biases whole, and writes rows 1024 g .. 1024 g + 1023 of the output [8192, 256].
  Entry (p, q) of the block written at point g depends on row 1024 g + p of the integer arrays only, and is the
  fused form of the embedding at batch (1024 g + p) / 512, window (1024 g + p) % 512, channel q.  So every point's
  block is the restriction of ONE function of the arguments (`rowsOut`), the eight blocks tile the rows, and the
  output array after the run is that function.
-/
import proofs.«152178_g44538810860311_cont_8to1c4_171_5_alg».proof.Proof.Gen.KernelIdeal.Frame
import Idealize.ShloMosaic.Lib.Pipeline.Value
import Idealize.ShloMosaic.Lib.ValueIdx
import proofs.«152178_g44538810860311_cont_8to1c4_171_5_alg».proof.Proof.Spec
import proofs.«152178_g44538810860311_cont_8to1c4_171_5_alg».proof.Proof.Windows
import proofs.«152178_g44538810860311_cont_8to1c4_171_5_alg».proof.Proof.BlockPayload

set_option maxRecDepth 16384
noncomputable section
open scoped BigOperators
namespace Cert.Embed.Blocks
open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Embed.Windows

variable (m : (ℓ : Loc nD τ sig) → Buf (Elt Ideal) ℓ)

/-- The zero offsets of a rank-2 buffer read or written whole. -/
theorem hz2 : (![0, 0] : Fin 2 → Nat) = fun _ => 0 := funext fun a => by fin_cases a <;> rfl
/-- The zero offsets of a rank-3 buffer read whole. -/
theorem hz3 : (![0, 0, 0] : Fin 3 → Nat) = fun _ => 0 := funext fun a => by fin_cases a <;> rfl

/-- The block indices over the grid: the three row-blocked inputs move with the output's row block, which is at most
    7; every other operand, and every second coordinate, stays at block 0. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 7 ∧ win0_9.index t (1 : Fin 2) = 0 :=
  (by decide +kernel : ∀ t : Fin grid0.N, _)

/-- Every one of the eight row blocks is some grid point's. -/
theorem idx_onto : ∀ (g : Fin 8), ∃ t : Fin cfg0.N, win0_9.index t = ![g.val, 0] :=
  (by decide +kernel : ∀ (g : Fin 8), ∃ t : Fin grid0.N, win0_9.index t = ![g.val, 0])

/-- The output viewed as 8192 rows: row `n` is window `n % 512` of batch `n / 512`. -/
def rowsOut (value depth : IVec ⟨2, ![16, 4096]⟩ 32) (pos : IVec ⟨3, ![16, 4096, 3]⟩ 32)
    (Wv : FVec Ideal ⟨2, ![256, 8]⟩ .f32) (bv : FVec Ideal ⟨1, ![256]⟩ .f32)
    (Wd : FVec Ideal ⟨2, ![256, 8]⟩ .f32) (bd : FVec Ideal ⟨1, ![256]⟩ .f32)
    (Wp : FVec Ideal ⟨3, ![3, 256, 8]⟩ .f32) (bp : FVec Ideal ⟨2, ![3, 256]⟩ .f32) : FVec Ideal ⟨2, ![8192, 256]⟩ .f32 :=
  fun i => Cert.Embed.fusedAt value depth pos Wv bv Wd bd Wp bp
    (⟨(i 0).val / 512, by have := idx2_lt0 i; omega⟩ : Fin 16) (⟨(i 0).val % 512, Nat.mod_lt _ (by decide)⟩ : Fin 512) (i 1)

/-- A block's entry from the block's operands is the row's entry from the arrays, when each operand of the block
    reads the arrays at the row. -/
theorem blockAt_eq_fusedAt (value depth : IVec ⟨2, ![16, 4096]⟩ 32) (pos : IVec ⟨3, ![16, 4096, 3]⟩ 32)
    (Wv : FVec Ideal ⟨2, ![256, 8]⟩ .f32) (bv : FVec Ideal ⟨1, ![256]⟩ .f32)
    (Wd : FVec Ideal ⟨2, ![256, 8]⟩ .f32) (bd : FVec Ideal ⟨1, ![256]⟩ .f32)
    (Wp : FVec Ideal ⟨3, ![3, 256, 8]⟩ .f32) (bp : FVec Ideal ⟨2, ![3, 256]⟩ .f32)
    (xv xd : IVec ⟨2, ![1024, 8]⟩ 32) (xp : IVec ⟨2, ![1024, 24]⟩ 32)
    (wv wd : FVec Ideal ⟨2, ![256, 8]⟩ .f32) (wp : FVec Ideal ⟨3, ![3, 256, 8]⟩ .f32)
    (b1 b2 : FVec Ideal ⟨2, ![1, 256]⟩ .f32) (b3 : FVec Ideal ⟨2, ![3, 256]⟩ .f32)
    (b : Fin 16) (t : Fin 512) (p : Fin 1024) (q : Fin 256)
    (hxv : ∀ d : Fin 8, xv (ix2 p d) = value (ix2 b (Cert.Embed.at8 t d)))
    (hxd : ∀ d : Fin 8, xd (ix2 p d) = depth (ix2 b (Cert.Embed.at8 t d)))
    (hxp : ∀ j : Fin 24, xp (ix2 p j) = pos (ix3 b (Cert.Embed.at8 t (Cert.Embed.row24 j)) (Cert.Embed.axis24 j)))
    (hwv : wv = Wv) (hwd : wd = Wd) (hwp : wp = Wp)
    (hb1 : b1 (ix2 (0 : Fin 1) q) = bv (ix1 q)) (hb2 : b2 (ix2 (0 : Fin 1) q) = bd (ix1 q)) (hb3 : b3 = bp) :
    Cert.Embed.blockAt xv xd xp wv wd wp b1 b2 b3 p q = Cert.Embed.fusedAt value depth pos Wv bv Wd bd Wp bp b t q := by
  subst hwv hwd hwp hb3
  unfold Cert.Embed.blockAt Cert.Embed.fusedAt
  simp only [hxv, hxd, hxp, hb1, hb2]

/-- What grid point `t` writes back is block `t` of the rows of the embedding: entry (p, q) of the body's result reads
    row `1024 g + p` of the regrouped inputs, which is window `(1024 g + p) % 512` of batch `(1024 g + p) / 512`. -/
theorem flushed_eq (c : Dev nD) (t : Fin cfg0.N) :
    (dats m 0 c).flushed 9 t = ((cfg0.win 9).blk t).view.read (Elt Ideal)
      (rowsOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  show (cfg0.win 9).cut (grid0.coords t) ((dats m 0 c).after 9 t) = _
  rw [after0_9]
  unfold out0_9
  rw [View.canon_unit_zero hz2]
  simp only [View.ld_unit_zero (S := S1024x8) hz2, View.ld_unit_zero (S := S256x8) hz2, View.ld_unit_zero (S := S3x256x8) hz3, View.ld_unit_zero (S := S1024x24) hz2, View.ld_unit_zero (S := S1x256) hz2, View.ld_unit_zero (S := S3x256) hz2]
  obtain ⟨e00, e01, e10, e11, e20, e21, e30, e31, e40, e41, e50, e51, e52, e60, e61, e70, e71, e80, e81, e9b, e91⟩ := idx_facts t
  refine funext fun (j : S1024x256.Idx) => ?_
  obtain ⟨p, q, rfl⟩ : ∃ (p : Fin 1024) (q : Fin 256), j = ix2 p q := ⟨j 0, j 1, eq_ix2 j⟩
  show k0_pay1 (F := Ideal) (iblk m c 0 t) (iblk m c 3 t) (iblk m c 1 t) (iblk m c 4 t) (iblk m c 5 t) (iblk m c 2 t) (iblk m c 6 t) (iblk m c 7 t) (iblk m c 8 t) (ix2 p q)
    = rowsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 p q))
  refine (Cert.Embed.Block.pay_apply (iblk m c 0 t) (iblk m c 3 t) (iblk m c 1 t) (iblk m c 4 t) (iblk m c 5 t) (iblk m c 2 t) (iblk m c 6 t) (iblk m c 7 t) (iblk m c 8 t) p q).trans ?_
  have hp : p.val < 1024 := p.isLt
  have hn : win0_9.index t (0 : Fin 2) * 1024 + p.val < 8192 := by omega
  have hemb : ((cfg0.win 9).blk t).view.emb (ix2 p q) = ix2 (⟨win0_9.index t (0 : Fin 2) * 1024 + p.val, hn⟩ : Fin 8192) q := by
    funext a; apply Fin.ext
    match a with
    | ⟨0, _⟩ => show win0_9.index t (0 : Fin 2) * 1024 + 1 * p.val = win0_9.index t (0 : Fin 2) * 1024 + p.val; omega
    | ⟨1, _⟩ => show win0_9.index t (1 : Fin 2) * 256 + 1 * q.val = q.val; omega
  rw [hemb]
  refine blockAt_eq_fusedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (iblk m c 0 t) (iblk m c 1 t) (iblk m c 2 t) (iblk m c 3 t) (iblk m c 4 t) (iblk m c 5 t) (iblk m c 6 t) (iblk m c 7 t) (iblk m c 8 t)
    (⟨(win0_9.index t (0 : Fin 2) * 1024 + p.val) / 512, by omega⟩ : Fin 16) (⟨(win0_9.index t (0 : Fin 2) * 1024 + p.val) % 512, Nat.mod_lt _ (by decide)⟩ : Fin 512) p q ?_ ?_ ?_ ?_ ?_ ?_ ?_ ?_ ?_
  · intro d
    show V m c main_call0_v0 (((cfg0.win 0).blk t).view.emb (ix2 p d)) = _
    refine (congrFun (V_v0 m c) _).trans ?_
    have h : ((cfg0.win 0).blk t).view.emb (ix2 p d) = ix2 (⟨win0_9.index t (0 : Fin 2) * 1024 + p.val, hn⟩ : Fin 8192) d := by
      funext a; apply Fin.ext
      match a with
      | ⟨0, _⟩ => show win0_0.index t (0 : Fin 2) * 1024 + 1 * p.val = win0_9.index t (0 : Fin 2) * 1024 + p.val; omega
      | ⟨1, _⟩ => show win0_0.index t (1 : Fin 2) * 8 + 1 * d.val = d.val; omega
    rw [h]
    exact rows8_apply _ _ d
  · intro d
    show V m c main_call0_v1 (((cfg0.win 1).blk t).view.emb (ix2 p d)) = _
    refine (congrFun (V_v1 m c) _).trans ?_
    have h : ((cfg0.win 1).blk t).view.emb (ix2 p d) = ix2 (⟨win0_9.index t (0 : Fin 2) * 1024 + p.val, hn⟩ : Fin 8192) d := by
      funext a; apply Fin.ext
      match a with
      | ⟨0, _⟩ => show win0_1.index t (0 : Fin 2) * 1024 + 1 * p.val = win0_9.index t (0 : Fin 2) * 1024 + p.val; omega
      | ⟨1, _⟩ => show win0_1.index t (1 : Fin 2) * 8 + 1 * d.val = d.val; omega
    rw [h]
    exact rows8_apply _ _ d
  · intro j
    show V m c main_call0_v2 (((cfg0.win 2).blk t).view.emb (ix2 p j)) = _
    refine (congrFun (V_v2 m c) _).trans ?_
    have h : ((cfg0.win 2).blk t).view.emb (ix2 p j) = ix2 (⟨win0_9.index t (0 : Fin 2) * 1024 + p.val, hn⟩ : Fin 8192) j := by
      funext a; apply Fin.ext
      match a with
      | ⟨0, _⟩ => show win0_2.index t (0 : Fin 2) * 1024 + 1 * p.val = win0_9.index t (0 : Fin 2) * 1024 + p.val; omega
      | ⟨1, _⟩ => show win0_2.index t (1 : Fin 2) * 24 + 1 * j.val = j.val; omega
    rw [h]
    exact rows24_apply _ _ j
  · funext y
    show V m c main_arg3 (((cfg0.win 3).blk t).view.emb y) = _
    rw [V_main_arg3]
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 8 + 1 * (y 1).val = (y 1).val; omega
  · funext y
    show V m c main_arg5 (((cfg0.win 4).blk t).view.emb y) = _
    rw [V_main_arg5]
    refine congrArg _ (funext fun a => Fin.ext ?_)
    match a with
    | ⟨0, _⟩ => show win0_4.index t (0 : Fin 2) * 256 + 1 * (y 0).val = (y 0).val; omega
    | ⟨1, _⟩ => show win0_4.index t (1 : Fin 2) * 8 + 1 * (y 1).val = (y 1).val; omega
  · funext y
    show V m c main_arg7 (((cfg0.win 5).blk t).view.emb y) = _
    rw [V_main_arg7]
    refine congrArg _ (funext fun a => Fin.ext ?_)
    match a with
    | ⟨0, _⟩ => show win0_5.index t (0 : Fin 3) * 3 + 1 * (y 0).val = (y 0).val; omega
    | ⟨1, _⟩ => show win0_5.index t (1 : Fin 3) * 256 + 1 * (y 1).val = (y 1).val; omega
    | ⟨2, _⟩ => show win0_5.index t (2 : Fin 3) * 8 + 1 * (y 2).val = (y 2).val; omega
  · show V m c main_call0_v3 (((cfg0.win 6).blk t).view.emb (ix2 (0 : Fin 1) q)) = _
    refine (congrFun (V_v3 m c) _).trans ?_
    have h : ((cfg0.win 6).blk t).view.emb (ix2 (0 : Fin 1) q) = ix2 (0 : Fin 1) q := by
      funext a; apply Fin.ext
      match a with
      | ⟨0, _⟩ => show win0_6.index t (0 : Fin 2) * 1 + 1 * 0 = 0; omega
      | ⟨1, _⟩ => show win0_6.index t (1 : Fin 2) * 256 + 1 * q.val = q.val; omega
    rw [h]
    exact row1_apply _ q
  · show V m c main_call0_v4 (((cfg0.win 7).blk t).view.emb (ix2 (0 : Fin 1) q)) = _
    refine (congrFun (V_v4 m c) _).trans ?_
    have h : ((cfg0.win 7).blk t).view.emb (ix2 (0 : Fin 1) q) = ix2 (0 : Fin 1) q := by
      funext a; apply Fin.ext
      match a with
      | ⟨0, _⟩ => show win0_7.index t (0 : Fin 2) * 1 + 1 * 0 = 0; omega
      | ⟨1, _⟩ => show win0_7.index t (1 : Fin 2) * 256 + 1 * q.val = q.val; omega
    rw [h]
    exact row1_apply _ q
  · funext y
    show V m c main_arg8 (((cfg0.win 8).blk t).view.emb y) = _
    rw [V_main_arg8]
    refine congrArg _ (funext fun a => Fin.ext ?_)
    match a with
    | ⟨0, _⟩ => show win0_8.index t (0 : Fin 2) * 3 + 1 * (y 0).val = (y 0).val; omega
    | ⟨1, _⟩ => show win0_8.index t (1 : Fin 2) * 256 + 1 * (y 1).val = (y 1).val; omega

/-- An index of the output is in point `t`'s block iff each coordinate is in the block's range on its axis. -/
theorem mem_blk (t : Fin cfg0.N) (i : S8192x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_call0_v5).slice (win0_9.rect t)).set ↔ _
  rw [View.set_slice_whole, Rect.mem_set_unit]
  exact Iff.rfl

/-- Every row lies in the block of the point `row / 1024`: the eight blocks of 1024 rows tile the 8192 rows. -/
theorem cover (i : S8192x256.Idx) : ∃ t : Fin cfg0.N, (cfg0.win 9).flush t = true ∧ i ∈ ((cfg0.win 9).blk t).view.set := by
  have hi0 : (i 0).val < 8192 := (i 0).isLt
  have hi1 : (i 1).val < 256 := (i 1).isLt
  obtain ⟨t, ht⟩ := idx_onto ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

/-- The output array after the run, as 8192 rows of the embedding. -/
theorem final (c : Dev nD) : (dats m 0 c).arrAt 9 cfg0.N = rowsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (rowsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

end Cert.Embed.Blocks
end
-- ==== Proof.Result.lean ====
/-
  The kernel's result.

  After the region one more regrouping views the output [8192, 256] as [16, 512, 256]: entry (b, t, c) is row
  512 b + t, column c.  Row 512 b + t is window t of batch b, so the result is the fused form of the embedding at
  (b, t, c), which is the embedding itself by the regrouping of sums in Spec.lean.
-/
import proofs.«152178_g44538810860311_cont_8to1c4_171_5_alg».proof.Proof.Gen.KernelIdeal.Frame
import Idealize.ShloMosaic.Lib.StableHlo.Run
import Idealize.ShloMosaic.Lib.Pipeline.Value
import Idealize.ShloMosaic.Lib.ValueIdx
import proofs.«152178_g44538810860311_cont_8to1c4_171_5_alg».proof.Proof.Spec
import proofs.«152178_g44538810860311_cont_8to1c4_171_5_alg».proof.Proof.Blocks

set_option maxRecDepth 16384
noncomputable section
open scoped BigOperators
namespace Cert.Embed.Result
open Idealize.ShloMosaic Idealize.ShloMosaic.TcCoe Idealize.SL.Sem Idealize.ShloMosaic.StableHlo Idealize.ShloMosaic.ValueIdx
open Cert.KernelIdeal Cert.KernelIdeal.Gen Cert.Embed.Blocks

variable (m : (ℓ : Loc nD τ sig) → Buf (Elt Ideal) ℓ)

/-- The result buffer after the last host operation: the output array of the region viewed as [16, 512, 256]. -/
theorem tail_eq (c : Dev nD) :
    (Pipeline.afterTail₀ cfgs (dats m) 0 (V0 m) [hostOps1] c main_v0 : S16x512x256.Idx → EReal)
      = shapeCast S16x512x256 ((dats m 0 c).arrAt 9 cfg0.N) shapeCasts_S8192x256_S16x512x256 := by
  unfold Pipeline.afterTail₀
  show StableHlo.after hostOps1 _ (Proc.devRef .tc main_v0) = _
  after_results
  have h := Pipeline.withArrays_arr spec0 launch0.win.arr_inj c (V0 m c) (fun w => (dats m 0 c).arrAt w cfg0.N) 9
  show shapeCast S16x512x256 (Pipeline.withArrays spec0 c (V0 m c) (fun w => (dats m 0 c).arrAt w cfg0.N) (Proc.devRef .tc (Pipeline.arrRef spec0 9))) shapeCasts_S8192x256_S16x512x256 = _
  rw [h]

/-- Row `512 b + t` of the 8192 rows is window `t` of batch `b`. -/
theorem rowsOut_apply (value depth : IVec ⟨2, ![16, 4096]⟩ 32) (pos : IVec ⟨3, ![16, 4096, 3]⟩ 32) (Wv : FVec Ideal ⟨2, ![256, 8]⟩ .f32) (bv : FVec Ideal ⟨1, ![256]⟩ .f32) (Wd : FVec Ideal ⟨2, ![256, 8]⟩ .f32) (bd : FVec Ideal ⟨1, ![256]⟩ .f32) (Wp : FVec Ideal ⟨3, ![3, 256, 8]⟩ .f32) (bp : FVec Ideal ⟨2, ![3, 256]⟩ .f32) (b : Fin 16) (t : Fin 512) (ch : Fin 256) (hn : b.val * 512 + t.val < 8192) :
    rowsOut value depth pos Wv bv Wd bd Wp bp (ix2 (⟨b.val * 512 + t.val, hn⟩ : Fin 8192) ch)
      = Cert.Embed.fusedAt value depth pos Wv bv Wd bd Wp bp b t ch := by
  have ht := t.isLt
  have e1 : (⟨(b.val * 512 + t.val) / 512, by omega⟩ : Fin 16) = b := Fin.ext (by show (b.val * 512 + t.val) / 512 = b.val; omega)
  have e2 : (⟨(b.val * 512 + t.val) % 512, Nat.mod_lt _ (by decide)⟩ : Fin 512) = t := Fin.ext (by show (b.val * 512 + t.val) % 512 = t.val; omega)
  show Cert.Embed.fusedAt value depth pos Wv bv Wd bd Wp bp (⟨(b.val * 512 + t.val) / 512, _⟩ : Fin 16) (⟨(b.val * 512 + t.val) % 512, _⟩ : Fin 512) ch = _
  rw [e1, e2]

/-- The 8192 rows viewed as [16, 512, 256] are the embedding. -/
theorem rows_eq_embed (value depth : IVec ⟨2, ![16, 4096]⟩ 32) (pos : IVec ⟨3, ![16, 4096, 3]⟩ 32) (Wv : FVec Ideal ⟨2, ![256, 8]⟩ .f32) (bv : FVec Ideal ⟨1, ![256]⟩ .f32) (Wd : FVec Ideal ⟨2, ![256, 8]⟩ .f32) (bd : FVec Ideal ⟨1, ![256]⟩ .f32) (Wp : FVec Ideal ⟨3, ![3, 256, 8]⟩ .f32) (bp : FVec Ideal ⟨2, ![3, 256]⟩ .f32) :
    shapeCast S16x512x256 (rowsOut value depth pos Wv bv Wd bd Wp bp) shapeCasts_S8192x256_S16x512x256
      = Cert.Embed.embed value depth pos Wv bv Wd bd Wp bp := by
  funext i
  obtain ⟨b, t, ch, rfl⟩ : ∃ (b : Fin 16) (t : Fin 512) (ch : Fin 256), i = ix3 b t ch := ⟨i 0, i 1, i 2, eq_ix3 i⟩
  have hb := b.isLt; have ht := t.isLt
  have hn : b.val * 512 + t.val < 8192 := by omega
  refine (shapeCast_apply (rowsOut value depth pos Wv bv Wd bd Wp bp) shapeCasts_S8192x256_S16x512x256 (ix3 b t ch) (ix2 (⟨b.val * 512 + t.val, hn⟩ : Fin 8192) ch) (by
    rewrite [Shape.rowMajor_val_two, Shape.rowMajor_val_three]
    rfl)).trans ?_
  rw [rowsOut_apply]
  exact Cert.Embed.fusedAt_eq_embedAt value depth pos Wv bv Wd bd Wp bp b t ch

/-- The result buffer after the run is the embedding of the argument arrays. -/
theorem result_eq (c : Dev nD) :
    (Pipeline.afterTail₀ cfgs (dats m) 0 (V0 m) [hostOps1] c main_v0 : S16x512x256.Idx → EReal)
      = Cert.Embed.embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [tail_eq, Blocks.final]
  exact rows_eq_embed _ _ _ _ _ _ _ _ _

/-- The kernel's run: every weakly fair execution ends with the result buffer at the embedding of the argument
    arrays and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v0) = Cert.Embed.embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).2 main_v0 (Pipeline.mem_restRefs_of main_v0 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      ((h c).1 8).trans (((dats m 0 c).arrAt_in 8 rfl _).trans ((A_eq m c 8).trans (V_main_arg8 m c)))⟩)
    (run_main m ρ)

end Cert.Embed.Result
end
-- ==== Proof.lean ====
/-
  The strided embedding kernel against its reference, at the ideal instance.

  Both programs compute, for batch b, window t and channel c, the five width-eight, stride-eight convolutions of the
  value row, the depth row and the three position axes, each with its bias, summed.  The reference adds the five
  convolutions one after the other (`Cert.Embed.embed`, Spec.lean).  The kernel views the inputs as 8192 rows of 8,
  8 and 24 window entries, multiplies each block of 1024 rows against the weights — the position weights permuted so
  that the 24 interleaved columns contract in one product — and adds the three biases summed beforehand
  (`Cert.Embed.blockAt`).  Read row by row that is `Cert.Embed.fusedAt`, and the two groupings are one value in the
  extended reals because addition there is commutative and associative and a sum over 24 = 8 · 3 columns splits by
  axis (`Cert.Embed.fusedAt_eq_embedAt`); no finiteness of the inputs is used.

  The frames of the two kernel programs and the reference's run are the generated ones.  The idealization rewrote no
  operation, so there is nothing to preserve beyond the program's own text.
-/
import proofs.«152178_g44538810860311_cont_8to1c4_171_5_alg».proof.Defs
import proofs.«152178_g44538810860311_cont_8to1c4_171_5_alg».proof.Proof.Gen.Kernel
import proofs.«152178_g44538810860311_cont_8to1c4_171_5_alg».proof.Proof.Gen.Kernel.Skeleton
import proofs.«152178_g44538810860311_cont_8to1c4_171_5_alg».proof.Proof.Gen.Kernel.Launch
import proofs.«152178_g44538810860311_cont_8to1c4_171_5_alg».proof.Proof.Gen.Kernel.Points
import proofs.«152178_g44538810860311_cont_8to1c4_171_5_alg».proof.Proof.Gen.Kernel.Frame
import proofs.«152178_g44538810860311_cont_8to1c4_171_5_alg».proof.Proof.Gen.KernelIdeal
import proofs.«152178_g44538810860311_cont_8to1c4_171_5_alg».proof.Proof.Gen.KernelIdeal.Skeleton
import proofs.«152178_g44538810860311_cont_8to1c4_171_5_alg».proof.Proof.Gen.KernelIdeal.Launch
import proofs.«152178_g44538810860311_cont_8to1c4_171_5_alg».proof.Proof.Gen.KernelIdeal.Points
import proofs.«152178_g44538810860311_cont_8to1c4_171_5_alg».proof.Proof.Gen.KernelIdeal.Frame
import proofs.«152178_g44538810860311_cont_8to1c4_171_5_alg».proof.Proof.Gen.ReferenceIdeal
import proofs.«152178_g44538810860311_cont_8to1c4_171_5_alg».proof.Proof.Gen.Pre_finite_inputs
import proofs.«152178_g44538810860311_cont_8to1c4_171_5_alg».proof.Proof.Gen.ReferenceIdeal.Run
import proofs.«152178_g44538810860311_cont_8to1c4_171_5_alg».proof.Proof.Gen.ReferenceIdeal.Read
import proofs.«152178_g44538810860311_cont_8to1c4_171_5_alg».proof.Proof.Spec
import proofs.«152178_g44538810860311_cont_8to1c4_171_5_alg».proof.Proof.RefIsEmbed
import proofs.«152178_g44538810860311_cont_8to1c4_171_5_alg».proof.Proof.Result
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the embedding of the (agreeing) argument arrays. -/
theorem algebraic : Cert.algebraic_KernelIdeal_ReferenceIdeal := by
  intro m ρ m' ρ' _ hagree
  refine ⟨fun c => Cert.Embed.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.Embed.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v49_eq, Cert.Embed.Ref.val_eq_embed, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
